-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x512 : Shape := ⟨3, ![256, 1024, 512]⟩
abbrev S256x128x512 : Shape := ⟨3, ![256, 128, 512]⟩
abbrev S256x1024 : Shape := ⟨2, ![256, 1024]⟩
abbrev S_ : Shape := ⟨0, ![]⟩

class Facts : Prop where
  bcast_S_S256x1024x512 : S_.BroadcastsInDim S256x1024x512 (![] : Fin 0 → Fin S256x1024x512.rank)
  reducesTo_S256x1024x512_S_d0_1_2 : S256x1024x512.ReducesTo [0, 1, 2] S_
  h_S_ : 0 < S_.numel
  bcast_S_S256x128x512 : S_.BroadcastsInDim S256x128x512 (![] : Fin 0 → Fin S256x128x512.rank)
  reducesTo_S256x128x512_S_d0_1_2 : S256x128x512.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x1024x512 .f32) (main_arg1 : FVec F S256x128x512 .f32) (main_arg2 : FVec F S256x1024 .f32) : IVec S_ 1 :=
  let main_v0 : FVec F S256x1024x512 .f32 := Host.absf main_arg0
  let main_cst : FVec F S_ .f32 := constant S_ .f32 0x7F800000#32
  let main_v1 : FVec F S256x1024x512 .f32 := broadcastInDim S256x1024x512 ![] bcast_S_S256x1024x512 main_cst
  let main_v2 : IVec S256x1024x512 1 := cmpf .olt main_v0 main_v1
  let main_c : IVec S_ 1 := constantI S_ 1 1#1
  let main_v3 : IVec S_ 1 := (fun x v => Host.reduce IntOp.andi x v reducesTo_S256x1024x512_S_d0_1_2 h_S_) main_v2 main_c
  let main_v4 : FVec F S256x128x512 .f32 := Host.absf main_arg1
  let main_cst_0 : FVec F S_ .f32 := constant S_ .f32 0x7F800000#32
  let main_v5 : FVec F S256x128x512 .f32 := broadcastInDim S256x128x512 ![] bcast_S_S256x128x512 main_cst_0
  let main_v6 : IVec S256x128x512 1 := cmpf .olt main_v4 main_v5
  let main_c_1 : IVec S_ 1 := constantI S_ 1 1#1
  let main_v7 : IVec S_ 1 := (fun x v => Host.reduce IntOp.andi x v reducesTo_S256x128x512_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S256x1024x512 : Shape := ⟨3, ![256, 1024, 512]⟩
abbrev S256x128x512 : Shape := ⟨3, ![256, 128, 512]⟩
abbrev S256x1024 : Shape := ⟨2, ![256, 1024]⟩
abbrev S256x1 : Shape := ⟨2, ![256, 1]⟩
abbrev S8x512x512 : Shape := ⟨3, ![8, 512, 512]⟩
abbrev S8x128x512 : Shape := ⟨3, ![8, 128, 512]⟩
abbrev S8x512 : Shape := ⟨2, ![8, 512]⟩
abbrev S8x1 : Shape := ⟨2, ![8, 1]⟩
abbrev S8x128 : Shape := ⟨2, ![8, 128]⟩
abbrev S8x1x512 : Shape := ⟨3, ![8, 1, 512]⟩
abbrev S8 : Shape := ⟨1, ![8]⟩

abbrev nBuf : Space → Nat
  | .hbm => 4
  | .vmem => 12
  | .smem => 0
  | _ => 0

abbrev bufTy : (tb : Table) → Fin (tcTables nBuf tb) → BufTy
  | .hbm, ⟨0, _⟩ => ⟨S256x1024x512, .f32⟩
  | .hbm, ⟨1, _⟩ => ⟨S256x128x512, .f32⟩
  | .hbm, ⟨2, _⟩ => ⟨S256x1024, .f32⟩
  | .hbm, ⟨3, _⟩ => ⟨S256x1, .f32⟩
  | .local _ .vmem, ⟨0, _⟩ => ⟨S8x512x512, .f32⟩
  | .local _ .vmem, ⟨1, _⟩ => ⟨S8x512x512, .f32⟩
  | .local _ .vmem, ⟨2, _⟩ => ⟨S8x128x512, .f32⟩
  | .local _ .vmem, ⟨3, _⟩ => ⟨S8x128x512, .f32⟩
  | .local _ .vmem, ⟨4, _⟩ => ⟨S8x512, .f32⟩
  | .local _ .vmem, ⟨5, _⟩ => ⟨S8x512, .f32⟩
  | .local _ .vmem, ⟨6, _⟩ => ⟨S8x1, .f32⟩
  | .local _ .vmem, ⟨7, _⟩ => ⟨S8x1, .f32⟩
  | .local _ .vmem, ⟨8, _⟩ => ⟨S8x128, .f32⟩
  | .local _ .vmem, ⟨9, _⟩ => ⟨S8x1, .f32⟩
  | .local _ .vmem, ⟨10, _⟩ => ⟨S8x1, .f32⟩
  | .local _ .vmem, ⟨11, _⟩ => ⟨S8x128x512, .bf16⟩
  | _, _ => ⟨S256x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_27 : BitVec 32 := 0#32
  let v43 : BitVec 1 := Scalar.cmpi .ne v42 c0_i32_27
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x512_S8x128x512_0_0_0 : ∀ a, (![0, 0, 0] : Fin 3 → Nat) a + S8x128x512.size a ≤ S8x128x512.size a
  h_S8x128x512 : 0 < S8x128x512.numel
  bitsLt_bf16_f32 : FTy.bits .bf16 < FTy.bits .f32
  shapeCasts_S8x128x512_S8x128x512 : S8x128x512.ShapeCasts S8x128x512
  packedbf16_S8x128x512_S8x128x512_0_0_0 : (Rect.unit (s := S8x128x512) ![0, 0, 0] S8x128x512.size inb_S8x128x512_S8x128x512_0_0_0).PackedRows (EltTy.packing .bf16)
  inb_S8x512x512_S8x512x512_0_0_0 : ∀ a, (![0, 0, 0] : Fin 3 → Nat) a + S8x512x512.size a ≤ S8x512x512.size a
  h_S8x512x512 : 0 < S8x512x512.numel
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  reduces_S8x128x512_S8x128 : S8x128x512.Reduces [2] S8x128
  reduces_S8x128x512_S8x512 : S8x128x512.Reduces [1] S8x512
  reduces_S8x512_S8 : S8x512.Reduces [1] S8
  shapeCasts_S8_S8x1 : S8.ShapeCasts S8x1
  reduces_S8x128_S8 : S8x128.Reduces [1] S8
  dot_S8x128x512_S8x512x512_S8x128x512_2_2_1_1_0_0_wf : DotDims.WF S8x128x512 S8x512x512 S8x128x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S256x1024x512.size a
  hwx0_0 : ∀ i : grid0.Coords, EltTy.bits .f32 = 32 ∨ (Rect.block (s := S256x1024x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S256x128x512.size a
  hwx0_1 : ∀ i : grid0.Coords, EltTy.bits .f32 = 32 ∨ (Rect.block (s := S256x128x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S256x1024.size a
  hwx0_2 : ∀ i : grid0.Coords, EltTy.bits .f32 = 32 ∨ (Rect.block (s := S256x1024) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S256x1.size a
  hwx0_3 : ∀ i : grid0.Coords, EltTy.bits .f32 = 32 ∨ (Rect.block (s := S256x1) S8x1.size (cc0_transform_3 i) (hinb0_3 i)).WholeWords (EltTy.packing .f32)

variable [Facts₀]

def dot_S8x128x512_S8x512x512_S8x128x512_2_2_1_1_0_0 : DotDims S8x128x512 S8x512x512 S8x128x512 where
  lhsContracting := [2]
  rhsContracting := [2]
  lhsNonContracting := [1]
  rhsNonContracting := [1]
  lhsBatch := [0]
  rhsBatch := [0]
  wf := dot_S8x128x512_S8x512x512_S8x128x512_2_2_1_1_0_0_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x1024x512 : Shape := ⟨3, ![256, 1024, 512]⟩
abbrev S256x128x512 : Shape := ⟨3, ![256, 128, 512]⟩
abbrev S256x1024 : Shape := ⟨2, ![256, 1024]⟩
abbrev S256x128x1024 : Shape := ⟨3, ![256, 128, 1024]⟩
abbrev S_ : Shape := ⟨0, ![]⟩
abbrev S256x1x1024 : Shape := ⟨3, ![256, 1, 1024]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x1024x512, .f32⟩
  | .hbm, ⟨1, _⟩ => ⟨S256x128x512, .f32⟩
  | .hbm, ⟨2, _⟩ => ⟨S256x1024, .f32⟩
  | .hbm, ⟨3, _⟩ => ⟨S256x128x1024, .f32⟩
  | .hbm, ⟨4, _⟩ => ⟨S_, .f32⟩
  | .hbm, ⟨5, _⟩ => ⟨S256x128x1024, .f32⟩
  | .hbm, ⟨6, _⟩ => ⟨S256x128x1024, .i1⟩
  | .hbm, ⟨7, _⟩ => ⟨S_, .f32⟩
  | .hbm, ⟨8, _⟩ => ⟨S256x128x1024, .f32⟩
  | .hbm, ⟨9, _⟩ => ⟨S256x128x1024, .f32⟩
  | .hbm, ⟨10, _⟩ => ⟨S256x128x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1x1024, .f32⟩
  | .hbm, ⟨15, _⟩ => ⟨S_, .f32⟩
  | .hbm, ⟨16, _⟩ => ⟨S256x1x1024, .f32⟩
  | .hbm, ⟨17, _⟩ => ⟨S256x1x1024, .f32⟩
  | .hbm, ⟨18, _⟩ => ⟨S256x128x1024, .f32⟩
  | .hbm, ⟨19, _⟩ => ⟨S256x128x1024, .f32⟩
  | .hbm, ⟨20, _⟩ => ⟨S_, .f32⟩
  | .hbm, ⟨21, _⟩ => ⟨S256x128, .f32⟩
  | .hbm, ⟨22, _⟩ => ⟨S_, .f32⟩
  | .hbm, ⟨23, _⟩ => ⟨S256, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S256x1, .f32⟩
  | _, _ => ⟨S256x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S256x128x1024 : S_.BroadcastsInDim S256x128x1024 (![] : Fin 0 → Fin S256x128x1024.rank)
  bcast_S_S256x1024 : S_.BroadcastsInDim S256x1024 (![] : Fin 0 → Fin S256x1024.rank)
  bcast_S256x1024_S256x1x1024_0_2 : S256x1024.BroadcastsInDim S256x1x1024 (![0, 2] : Fin 2 → Fin S256x1x1024.rank)
  bcast_S_S256x1x1024 : S_.BroadcastsInDim S256x1x1024 (![] : Fin 0 → Fin S256x1x1024.rank)
  bcast_S256x1x1024_S256x128x1024_0_1_2 : S256x1x1024.BroadcastsInDim S256x128x1024 (![0, 1, 2] : Fin 3 → Fin S256x128x1024.rank)
  reducesTo_S256x128x1024_S256x128_d2 : S256x128x1024.ReducesTo [2] S256x128
  h_S_ : 0 < S_.numel
  reducesTo_S256x128_S256_d1 : S256x128.ReducesTo [1] S256
  bcast_S256_S256x1_0 : S256.BroadcastsInDim S256x1 (![0] : Fin 1 → Fin S256x1.rank)
  bcast_S_S256x1 : S_.BroadcastsInDim S256x1 (![] : Fin 0 → Fin S256x1.rank)
  reducesTo_S256x128x1024_S256x1024_d1 : S256x128x1024.ReducesTo [1] S256x1024
  reducesTo_S256x1024_S256_d1 : S256x1024.ReducesTo [1] S256
  dot_S256x128x512_S256x1024x512_S256x128x1024_2_2_1_1_0_0_wf : DotDims.WF S256x128x512 S256x1024x512 S256x128x1024 [2] [2] [1] [1] [0] [0]

variable [Facts₀]

def dot_S256x128x512_S256x1024x512_S256x128x1024_2_2_1_1_0_0 : DotDims S256x128x512 S256x1024x512 S256x128x1024 where
  lhsContracting := [2]
  rhsContracting := [2]
  lhsNonContracting := [1]
  rhsNonContracting := [1]
  lhsBatch := [0]
  rhsBatch := [0]
  wf := dot_S256x128x512_S256x1024x512_S256x128x1024_2_2_1_1_0_0_wf

class Facts : Prop extends Facts₀ where

variable [Facts]
-- ==== Proof.TileState.lean ====
/-
  What one grid point leaves behind, as pure terms of what it read.

  The grid is 32 batch blocks by 2 patch tiles.  A FIRST tile (tile index 0) resets the running state — the row
  maxima to -∞, the mask-weighted column sum and the mask sum to zero, the cached words to the word block — and then
  advances it by its own tile, so what it leaves depends on its three input blocks alone.  A LAST tile (tile index 1)
  advances the state the first tile left by its own tile and stores the pooled result of the advanced state.  Each
  statement below reads one of these buffers back: a store through the whole buffer leaves its value, and a load
  through the whole buffer of what one such store left reads that value.
-/
import proofs.«136121_j979252544026_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a first tile the cached words are the word block itself, re-typed. -/
theorem words_A (c : Dev nD) (i : grid0.Coords) (arg2 : Memref sig .tc .vmem S8x512x512 .f32) (harg2 : arg2.IsWhole) (arg3 : Memref sig .tc .vmem S8x128x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x128x512 .bf16) (harg9 : arg9.IsWhole) (hc0 : cond0_0 i) (hc1 : ¬cond0_1 i) (x0 : Vec F S8x512x512 .f32) (x1 : Vec F S8x128x512 .f32) (x2 : Vec F S8x512 .f32) :
    sout0_A_3 c i arg2 harg2 arg3 harg3 arg4 harg4 arg5 harg5 arg6 harg6 arg7 harg7 arg8 harg8 arg9 harg9 hc0 hc1 x0 x1 x2 = k0_pay7 x1 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8x128x512) hz3]

/-- After a first tile the mask's running sum is the tile's mask sum added to the zero block. -/
theorem maskSum_A (c : Dev nD) (i : grid0.Coords) (arg2 : Memref sig .tc .vmem S8x512x512 .f32) (harg2 : arg2.IsWhole) (arg3 : Memref sig .tc .vmem S8x128x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x128x512 .bf16) (harg9 : arg9.IsWhole) (hc0 : cond0_0 i) (hc1 : ¬cond0_1 i) (x0 : Vec F S8x512x512 .f32) (x1 : Vec F S8x128x512 .f32) (x2 : Vec F S8x512 .f32) :
    sout0_A_2 c i arg2 harg2 arg3 harg3 arg4 harg4 arg5 harg5 arg6 harg6 arg7 harg7 arg8 harg8 arg9 harg9 hc0 hc1 x0 x1 x2 = k0_pay2 x2 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x1) hz2]
  simp only [View.readCov_unit_zero (S := S8x128) _ hz2, View.readCov_unit_zero (S := S8x1) _ hz2,
    View.readCov_unit_zero (S := S8x128x512) _ hz3, View.readAt_eq_ld, harg2.read_unread, harg3.read_unread, harg4.read_unread, harg5.read_unread, harg6.read_unread, harg7.read_unread, harg8.read_unread, harg9.read_unread,
    View.ld_unit_zero (S := S8x512x512) hz3, View.ld_unit_zero (S := S8x128x512) hz3, View.ld_unit_zero (S := S8x512) hz2,
    View.ld_unit_zero (S := S8x128) hz2, View.ld_unit_zero (S := S8x1) hz2]

/-- After a first tile the weighted column sum is the tile's, added to the zero block, over the tile's own words. -/
theorem colSum_A (c : Dev nD) (i : grid0.Coords) (arg2 : Memref sig .tc .vmem S8x512x512 .f32) (harg2 : arg2.IsWhole) (arg3 : Memref sig .tc .vmem S8x128x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x128x512 .bf16) (harg9 : arg9.IsWhole) (hc0 : cond0_0 i) (hc1 : ¬cond0_1 i) (x0 : Vec F S8x512x512 .f32) (x1 : Vec F S8x128x512 .f32) (x2 : Vec F S8x512 .f32) :
    sout0_A_1 c i arg2 harg2 arg3 harg3 arg4 harg4 arg5 harg5 arg6 harg6 arg7 harg7 arg8 harg8 arg9 harg9 hc0 hc1 x0 x1 x2 = k0_pay1 (k0_pay10 x0 (k0_pay7 x1) x2 k0_pay5) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x1) hz2]
  simp only [View.readCov_unit_zero (S := S8x128) _ hz2, View.readCov_unit_zero (S := S8x1) _ hz2,
    View.readCov_unit_zero (S := S8x128x512) _ hz3, View.readAt_eq_ld, harg2.read_unread, harg3.read_unread, harg4.read_unread, harg5.read_unread, harg6.read_unread, harg7.read_unread, harg8.read_unread, harg9.read_unread,
    View.ld_unit_zero (S := S8x512x512) hz3, View.ld_unit_zero (S := S8x128x512) hz3, View.ld_unit_zero (S := S8x512) hz2,
    View.ld_unit_zero (S := S8x128) hz2, View.ld_unit_zero (S := S8x1) hz2]

/-- After a first tile the running row maxima are the tile's, joined with the block of -∞. -/
theorem rowMax_A (c : Dev nD) (i : grid0.Coords) (arg2 : Memref sig .tc .vmem S8x512x512 .f32) (harg2 : arg2.IsWhole) (arg3 : Memref sig .tc .vmem S8x128x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x128x512 .bf16) (harg9 : arg9.IsWhole) (hc0 : cond0_0 i) (hc1 : ¬cond0_1 i) (x0 : Vec F S8x512x512 .f32) (x1 : Vec F S8x128x512 .f32) (x2 : Vec F S8x512 .f32) :
    sout0_A_0 c i arg2 harg2 arg3 harg3 arg4 harg4 arg5 harg5 arg6 harg6 arg7 harg7 arg8 harg8 arg9 harg9 hc0 hc1 x0 x1 x2 = k0_pay9 x0 (k0_pay7 x1) x2 k0_pay4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x128) hz2]
  simp only [View.readCov_unit_zero (S := S8x128) _ hz2, View.readCov_unit_zero (S := S8x1) _ hz2,
    View.readCov_unit_zero (S := S8x128x512) _ hz3, View.readAt_eq_ld, harg2.read_unread, harg3.read_unread, harg4.read_unread, harg5.read_unread, harg6.read_unread, harg7.read_unread, harg8.read_unread, harg9.read_unread,
    View.ld_unit_zero (S := S8x512x512) hz3, View.ld_unit_zero (S := S8x128x512) hz3, View.ld_unit_zero (S := S8x512) hz2,
    View.ld_unit_zero (S := S8x128) hz2, View.ld_unit_zero (S := S8x1) hz2]

/-- A last tile stores the pooled result of the three running quantities, each advanced by this tile over what the
    tile before left. -/
theorem result_B (c : Dev nD) (i : grid0.Coords) (arg2 : Memref sig .tc .vmem S8x512x512 .f32) (harg2 : arg2.IsWhole) (arg3 : Memref sig .tc .vmem S8x128x512 .f32) (harg3 : arg3.IsWhole) (arg4 : Memref sig .tc .vmem S8x512 .f32) (harg4 : arg4.IsWhole) (arg5 : Memref sig .tc .vmem S8x1 .f32) (harg5 : arg5.IsWhole) (arg6 : Memref sig .tc .vmem S8x128 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x128x512 .bf16) (harg9 : arg9.IsWhole) (hc0 : ¬cond0_0 i) (hc1 : cond0_1 i) (x0 : Vec F S8x512x512 .f32) (x1 : Vec F S8x128x512 .f32) (x2 : Vec F S8x512 .f32) (xs0 : Vec F S8x128 .f32) (xs1 : Vec F S8x1 .f32) (xs2 : Vec F S8x1 .f32) (xs3 : Vec F S8x128x512 .bf16) :
    out0_B_3 c i arg2 harg2 arg3 harg3 arg4 harg4 arg5 harg5 arg6 harg6 arg7 harg7 arg8 harg8 arg9 harg9 hc0 hc1 x0 x1 x2 xs0 xs1 xs2 xs3
      = k0_pay3 (k0_pay9 x0 xs3 x2 xs0) (k0_pay1 (k0_pay10 x0 xs3 x2 xs1)) (k0_pay2 x2 xs2) := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero (S := S8x1) hz2]
  simp only [View.readCov_unit_zero (S := S8x128) _ hz2, View.readCov_unit_zero (S := S8x1) _ hz2,
    View.readCov_unit_zero (S := S8x128x512) _ hz3, View.readAt_eq_ld, harg2.read_unread, harg3.read_unread, harg4.read_unread, harg5.read_unread, harg6.read_unread, harg7.read_unread, harg8.read_unread, harg9.read_unread,
    View.ld_unit_zero (S := S8x512x512) hz3, View.ld_unit_zero (S := S8x128x512) hz3, View.ld_unit_zero (S := S8x512) hz2,
    View.ld_unit_zero (S := S8x128) hz2, View.ld_unit_zero (S := S8x1) hz2]

end Cert.KernelIdeal.Tiles

end
-- ==== Proof.Pooling.lean ====
/-
  The pooled similarity of a batch of captions and images, as ONE function of the three argument arrays,
  index by index on the extended reals.

  For batch entry `b`, word `m` and patch `n` the similarity is the inner product over the 512 channels,
      sim b m n = ∑ c, word (b, m, c) * patch (b, n, c),
  passed through the leaky rectifier of slope `a` (the f32 word nearest one tenth), spelt `max s (a * s)`.
  Row pooling: for each word the maximum over all 1024 patches of the rectified similarity less the penalty
  `1000 * (1 - mask (b, n))`, started from the word for -∞; these 128 maxima are summed and divided by 128.
  Column pooling: for each patch the maximum over the 128 words, weighted by the mask and summed over the
  patches, divided by the mask's sum plus the f32 word nearest 1e-8.  The result at `(b, 0)` is the sum of the
  two pooled means.  Sums are written `init + ∑` with the f32 zero word as `init`; every float literal stays
  the word the two programs share, so none of them is ever evaluated here.
-/
import Idealize.ShloMosaic.PureOps.Ideal
import Idealize.ShloMosaic.Lib.ValueIdx

noncomputable section

namespace Cert.Pooling

open Idealize.ShloMosaic Idealize.ShloMosaic.ValueIdx

/-- The argument and result shapes: patches [256, 1024, 512], words [256, 128, 512], mask [256, 1024], result [256, 1]. -/
abbrev SPatch : Shape := ⟨3, ![256, 1024, 512]⟩
abbrev SWord : Shape := ⟨3, ![256, 128, 512]⟩
abbrev SMask : Shape := ⟨2, ![256, 1024]⟩
abbrev SOut : Shape := ⟨2, ![256, 1]⟩

variable (P : SPatch.Idx → EReal) (W : SWord.Idx → EReal) (K : SMask.Idx → EReal)

/-- The similarity of word `m` and patch `n` of batch entry `b`: the inner product over the channels. -/
def sim (b : Fin 256) (m : Fin 128) (n : Fin 1024) : EReal :=
  ∑ c : Fin 512, W (ix3 b m c) * P (ix3 b n c)

/-- The leaky rectifier in the spelling `max s (a * s)`, `a` the f32 word nearest one tenth. -/
def leaky (s : EReal) : EReal := max s (Ideal.ofBits .f32 0x3DCCCCCD#32 * s)

/-- The penalty of patch `n`: `1000 * (1 - mask)`. -/
def penalty (b : Fin 256) (n : Fin 1024) : EReal :=
  Ideal.ofBits .f32 0x447A0000#32 * (Ideal.ofBits .f32 0x3F800000#32 - K (ix2 b n))

/-- Row pooling: word `m`'s maximum over all patches of the rectified similarity less the penalty. -/
def rowMax (b : Fin 256) (m : Fin 128) : EReal :=
  (Finset.univ : Finset (Fin 1024)).fold max (Ideal.ofBits .f32 0xFF800000#32)
    (fun n => leaky (sim P W b m n) - penalty K b n)

/-- Column pooling: patch `n`'s maximum over all words of the rectified similarity. -/
def colMax (b : Fin 256) (n : Fin 1024) : EReal :=
  (Finset.univ : Finset (Fin 128)).fold max (Ideal.ofBits .f32 0xFF800000#32)
    (fun m => leaky (sim P W b m n))

/-- The mean of the row maxima: their sum over the 128 words, divided by 128. -/
def rowMean (b : Fin 256) : EReal :=
  Ideal.div (Ideal.ofBits .f32 0x00000000#32 + ∑ m : Fin 128, rowMax P W K b m) (Ideal.ofBits .f32 0x43000000#32)

/-- The masked mean of the column maxima: their mask-weighted sum over the mask's sum plus the small word. -/
def colMean (b : Fin 256) : EReal :=
  Ideal.div (Ideal.ofBits .f32 0x00000000#32 + ∑ n : Fin 1024, colMax P W b n * K (ix2 b n))
    ((Ideal.ofBits .f32 0x00000000#32 + ∑ n : Fin 1024, K (ix2 b n)) + Ideal.ofBits .f32 0x322BCC77#32)

/-- The result array: at `(b, 0)` the two pooled means added. -/
def pooled : SOut.Idx → EReal := fun i => rowMean P W K (i 0) + colMean P W K (i 0)

end Cert.Pooling

end
-- ==== Proof.TileArithmetic.lean ====
/-
  One tile's arithmetic at an index, on the extended reals.

  For a batch block of 8 entries, a word block [8, 128, 512] and a patch tile [8, 512, 512]: the batched product at
  (b, m, q) is the inner product over the 512 channels of word m and patch q of entry b (a change of float format is
  the identity on extended reals, and the accumulator is the zero block), and the rectified tile is its leaky image.
  The penalty row [8, 512], viewed as [8, 1, 512] and repeated over the 128 words, reads at (b, m, q) its entry (b, q).
  A maximum over the patches of the tile (or over the words) is the fold of `max` from the word for -∞; a lane sum is
  the plain finite sum; a vector of 8 sums viewed as a column reads at (b, 0) its entry b.
-/
import proofs.«136121_j979252544026_2_alg».proof.Proof.Gen.KernelIdeal.Skeleton
import proofs.«136121_j979252544026_2_alg».proof.Proof.Pooling
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tiles

open Cert.KernelIdeal Cert.KernelIdeal.Gen

/-- The batched product's dimension record: batch axis 0 of both, contraction over axis 2 of both. -/
abbrev Dot : DotDims S8x128x512 S8x512x512 S8x128x512 := dot_S8x128x512_S8x512x512_S8x128x512_2_2_1_1_0_0

theorem lhs_batch (i : S8x128x512.Idx) (k : Dot.contr.Idx) : (Dot.lhsIdx i k 0).val = (i 0).val := by
  unfold DotDims.lhsIdx
  rw [dif_pos (show (0 : Fin S8x128x512.rank) ∈ Dot.lhsBatch by decide)]
  rfl
theorem lhs_word (i : S8x128x512.Idx) (k : Dot.contr.Idx) : (Dot.lhsIdx i k 1).val = (i 1).val := by
  unfold DotDims.lhsIdx
  rw [dif_neg (show ¬(1 : Fin S8x128x512.rank) ∈ Dot.lhsBatch by decide),
    dif_pos (show (1 : Fin S8x128x512.rank) ∈ Dot.lhsNonContracting by decide)]
  rfl
theorem lhs_channel (i : S8x128x512.Idx) (k : Dot.contr.Idx) : (Dot.lhsIdx i k 2).val = (k ⟨0, by decide⟩).val :=
  Dot.lhsIdx_val_of_single rfl i k
theorem rhs_batch (i : S8x128x512.Idx) (k : Dot.contr.Idx) : (Dot.rhsIdx i k 0).val = (i 0).val := by
  unfold DotDims.rhsIdx
  rw [dif_pos (show (0 : Fin S8x512x512.rank) ∈ Dot.rhsBatch by decide)]
  rfl
theorem rhs_patch (i : S8x128x512.Idx) (k : Dot.contr.Idx) : (Dot.rhsIdx i k 1).val = (i 2).val := by
  unfold DotDims.rhsIdx
  rw [dif_neg (show ¬(1 : Fin S8x512x512.rank) ∈ Dot.rhsBatch by decide),
    dif_pos (show (1 : Fin S8x512x512.rank) ∈ Dot.rhsNonContracting by decide)]
  rfl
theorem rhs_channel (i : S8x128x512.Idx) (k : Dot.contr.Idx) : (Dot.rhsIdx i k 2).val = (k ⟨0, by decide⟩).val :=
  Dot.rhsIdx_val_of_single rfl i k

/-- The batched product into the zero block, at (b, m, q): the inner product over the channels. -/
theorem product_apply (l : FVec Ideal S8x128x512 .bf16) (r : FVec Ideal S8x512x512 .bf16) (b : Fin 8) (m : Fin 128) (q : Fin 512) :
    matmul (F := Ideal) Dot none l r (constant (F := Ideal) S8x128x512 .f32 0x00000000#32) (ix3 b m q)
      = ∑ c : Fin 512, l (ix3 b m c) * r (ix3 b q c) := by
  simp only [matmul]
  rw [Ideal.matmul_constant_zero_apply, ← Equiv.sum_comp (ValueIdx.contrEquiv1 Dot 512 rfl rfl).symm]
  refine Finset.sum_congr rfl fun k _ => ?_
  have hk := ValueIdx.contrEquiv1_symm_val Dot 512 rfl rfl k
  have el : Dot.lhsIdx (ix3 b m q) ((ValueIdx.contrEquiv1 Dot 512 rfl rfl).symm k) = ix3 b m k := funext fun a => Fin.ext (by
    match a with
    | ⟨0, _⟩ => exact lhs_batch _ _
    | ⟨1, _⟩ => exact lhs_word _ _
    | ⟨2, _⟩ => exact (lhs_channel _ _).trans hk)
  have er : Dot.rhsIdx (ix3 b m q) ((ValueIdx.contrEquiv1 Dot 512 rfl rfl).symm k) = ix3 b q k := funext fun a => Fin.ext (by
    match a with
    | ⟨0, _⟩ => exact rhs_batch _ _
    | ⟨1, _⟩ => exact rhs_patch _ _
    | ⟨2, _⟩ => exact (rhs_channel _ _).trans hk)
  rw [el, er]

/-- The rectified tile at (b, m, q): the leaky image of the inner product of word m and patch q of entry b. -/
theorem rectified_apply (v3 : FVec Ideal S8x512x512 .f32) (v5 : FVec Ideal S8x128x512 .bf16) (b : Fin 8) (m : Fin 128) (q : Fin 512) :
    k0_pay8 (F := Ideal) v3 v5 (ix3 b m q) = Cert.Pooling.leaky (∑ c : Fin 512, v5 (ix3 b m c) * v3 (ix3 b q c)) := by
  have e := product_apply v5 (truncf .bf16 v3 bitsLt_bf16_f32) b m q
  exact congrArg (fun s : EReal => max s (Ideal.ofBits .f32 0x3DCCCCCD#32 * s)) e

/-- The penalty row viewed as [8, 1, 512] and repeated over the words reads, at (b, m, q), its entry (b, q). -/
theorem repeated_row_apply (y : S8x512.Idx → EReal) (b : Fin 8) (m : Fin 128) (q : Fin 512) :
    broadcastTo S8x128x512 (shapeCast S8x1x512 (shapeCast S8x1x512 y shapeCasts_S8x512_S8x1x512) shapeCasts_S8x1x512_S8x1x512)
      broadcasts_S8x1x512_S8x128x512 (ix3 b m q) = y (ix2 b q) := by
  rw [broadcastTo_apply _ _ _ (ix3 b (0 : Fin 1) q) (fun a => by
    match a with
    | ⟨0, _⟩ => show b.val = if (8 : Nat) = 1 then 0 else b.val; rw [if_neg (by decide)]
    | ⟨1, _⟩ => show (0 : Nat) = if (1 : Nat) = 1 then 0 else m.val; rw [if_pos rfl]
    | ⟨2, _⟩ => show q.val = if (512 : Nat) = 1 then 0 else q.val; rw [if_neg (by decide)]),
    shapeCast_self,
    shapeCast_apply _ _ _ (ix2 b q) (by
      rw [Shape.rowMajor_val_two, Shape.rowMajor_val_three]
      show b.val * 512 + q.val = (b.val * 1 + 0) * 512 + q.val
      omega)]

/-- A vector of 8 values viewed as a column reads at (b, 0) its entry b. -/
theorem column_apply (y : S8.Idx → EReal) (b : Fin 8) :
    shapeCast S8x1 y shapeCasts_S8_S8x1 (ix2 b (0 : Fin 1)) = y (ix1 b) :=
  shapeCast_apply _ _ _ (ix1 b) (by
    rw [Shape.rowMajor_val_one, Shape.rowMajor_val_two]
    show b.val = b.val * 1 + 0
    omega)

/-- The maximum over the tile's patches, at (b, m): the fold of `max` from the word for -∞ over q. -/
theorem max_over_patches (src : FVec Ideal S8x128x512 .f32) (b : Fin 8) (m : Fin 128) :
    multiReduction (F := Ideal) .maximumf [2] S8x128 src 0xFF800000#32 reduces_S8x128x512_S8x128 (.inl rfl) rfl (ix2 b m)
      = (Finset.univ : Finset (Fin 512)).fold max (Ideal.ofBits .f32 0xFF800000#32) (fun q => src (ix3 b m q)) := by
  refine (Ideal.multiReduction_maximumf_single src 0xFF800000#32 reduces_S8x128x512_S8x128 (.inl rfl) rfl (ix2 b m)).trans ?_
  show (Finset.univ : Finset (Fin 512)).fold max _ (fun q => src (reduces_S8x128x512_S8x128.lift (ix2 b m) q)) = _
  refine congrArg (fun f => (Finset.univ : Finset (Fin 512)).fold max _ f) (funext fun q => congrArg src (funext fun a => Fin.ext ?_))
  match a with
  | ⟨0, _⟩ => rfl
  | ⟨1, _⟩ => rfl
  | ⟨2, _⟩ => rfl

/-- The maximum over the words, at (b, q): the fold of `max` from the word for -∞ over m. -/
theorem max_over_words (src : FVec Ideal S8x128x512 .f32) (b : Fin 8) (q : Fin 512) :
    multiReduction (F := Ideal) .maximumf [1] S8x512 src 0xFF800000#32 reduces_S8x128x512_S8x512 (.inl rfl) rfl (ix2 b q)
      = (Finset.univ : Finset (Fin 128)).fold max (Ideal.ofBits .f32 0xFF800000#32) (fun m => src (ix3 b m q)) := by
  refine (Ideal.multiReduction_maximumf_single src 0xFF800000#32 reduces_S8x128x512_S8x512 (.inl rfl) rfl (ix2 b q)).trans ?_
  show (Finset.univ : Finset (Fin 128)).fold max _ (fun m => src (reduces_S8x128x512_S8x512.lift (ix2 b q) m)) = _
  refine congrArg (fun f => (Finset.univ : Finset (Fin 128)).fold max _ f) (funext fun m => congrArg src (funext fun a => Fin.ext ?_))
  match a with
  | ⟨0, _⟩ => rfl
  | ⟨1, _⟩ => rfl
  | ⟨2, _⟩ => rfl

/-- A lane sum of an [8, 512] tile, at b: the sum over the 512 lanes. -/
theorem sum_over_patches (src : FVec Ideal S8x512 .f32) (b : Fin 8) :
    multiReduction (F := Ideal) .add [1] S8 src 0x00000000#32 reduces_S8x512_S8 (.inl rfl) rfl (ix1 b)
      = ∑ q : Fin 512, src (ix2 b q) := by
  refine (Ideal.multiReduction_add_single src 0x00000000#32 reduces_S8x512_S8 (.inl rfl) rfl (ix1 b)).trans ?_
  show ∑ q : Fin 512, src (reduces_S8x512_S8.lift (ix1 b) q) = _
  refine Finset.sum_congr rfl fun q _ => congrArg src (funext fun a => Fin.ext ?_)
  match a with
  | ⟨0, _⟩ => rfl
  | ⟨1, _⟩ => rfl

/-- A lane sum of an [8, 128] tile, at b: the sum over the 128 lanes. -/
theorem sum_over_words (src : FVec Ideal S8x128 .f32) (b : Fin 8) :
    multiReduction (F := Ideal) .add [1] S8 src 0x00000000#32 reduces_S8x128_S8 (.inl rfl) rfl (ix1 b)
      = ∑ m : Fin 128, src (ix2 b m) := by
  refine (Ideal.multiReduction_add_single src 0x00000000#32 reduces_S8x128_S8 (.inl rfl) rfl (ix1 b)).trans ?_
  show ∑ m : Fin 128, src (reduces_S8x128_S8.lift (ix1 b) m) = _
  refine Finset.sum_congr rfl fun m _ => congrArg src (funext fun a => Fin.ext ?_)
  match a with
  | ⟨0, _⟩ => rfl
  | ⟨1, _⟩ => rfl

/-- The running row maxima advanced by one tile, at (b, m): the old maximum joined with the tile's maximum over its
    patches of the rectified entry less the penalty `1000 * (1 - mask)`. -/
theorem rowMax_step_apply (v3 : FVec Ideal S8x512x512 .f32) (v5 : FVec Ideal S8x128x512 .bf16) (v10 : FVec Ideal S8x512 .f32)
    (v20 : FVec Ideal S8x128 .f32) (b : Fin 8) (m : Fin 128) :
    k0_pay9 (F := Ideal) v3 v5 v10 v20 (ix2 b m)
      = max (v20 (ix2 b m)) ((Finset.univ : Finset (Fin 512)).fold max (Ideal.ofBits .f32 0xFF800000#32)
          (fun q => k0_pay8 (F := Ideal) v3 v5 (ix3 b m q)
            - Ideal.ofBits .f32 0x447A0000#32 * (Ideal.ofBits .f32 0x3F800000#32 - v10 (ix2 b q)))) := by
  unfold k0_pay9
  refine (congrFun (shapeCast_self _ _) (ix2 b m)).trans ?_
  refine congrArg (max (v20 (ix2 b m))) ?_
  refine (max_over_patches _ b m).trans ?_
  refine congrArg (fun f => (Finset.univ : Finset (Fin 512)).fold max _ f) (funext fun q => ?_)
  refine congrArg (fun z : EReal => k0_pay8 (F := Ideal) v3 v5 (ix3 b m q) - z) ?_
  exact repeated_row_apply (fun j => Ideal.ofBits .f32 0x447A0000#32 * (Ideal.ofBits .f32 0x3F800000#32 - v10 j)) b m q

/-- The mask-weighted column sum advanced by one tile, at (b, 0): the old sum plus the sum over the tile's patches of
    the maximum over the words of the rectified entry, times the mask. -/
theorem colSum_step_apply (v3 : FVec Ideal S8x512x512 .f32) (v5 : FVec Ideal S8x128x512 .bf16) (v10 : FVec Ideal S8x512 .f32)
    (v26 : FVec Ideal S8x1 .f32) (b : Fin 8) :
    k0_pay10 (F := Ideal) v3 v5 v10 v26 (ix2 b (0 : Fin 1))
      = v26 (ix2 b (0 : Fin 1)) + ∑ q : Fin 512,
          ((Finset.univ : Finset (Fin 128)).fold max (Ideal.ofBits .f32 0xFF800000#32) (fun m => k0_pay8 (F := Ideal) v3 v5 (ix3 b m q)))
            * v10 (ix2 b q) := by
  unfold k0_pay10
  refine congrArg (fun z : EReal => v26 (ix2 b (0 : Fin 1)) + z) ?_
  refine (column_apply _ b).trans ?_
  refine (sum_over_patches _ b).trans ?_
  refine Finset.sum_congr rfl fun q _ => ?_
  exact congrArg (fun z : EReal => z * v10 (ix2 b q)) (max_over_words _ b q)

/-- The mask sum advanced by one tile, at (b, 0): the old sum plus the tile's mask sum. -/
theorem maskSum_step_apply (v10 : FVec Ideal S8x512 .f32) (v34 : FVec Ideal S8x1 .f32) (b : Fin 8) :
    k0_pay2 (F := Ideal) v10 v34 (ix2 b (0 : Fin 1)) = v34 (ix2 b (0 : Fin 1)) + ∑ q : Fin 512, v10 (ix2 b q) := by
  unfold k0_pay2
  refine (congrFun (shapeCast_self _ _) (ix2 b (0 : Fin 1))).trans ?_
  refine congrArg (fun z : EReal => v34 (ix2 b (0 : Fin 1)) + z) ?_
  exact (column_apply _ b).trans (sum_over_patches _ b)

/-- The pooled result of a running state, at (b, 0): the row maxima summed over the words and divided by 128, plus the
    weighted column sum over the mask sum plus the small word. -/
theorem pooled_state_apply (v44 : FVec Ideal S8x128 .f32) (v49 v50 : FVec Ideal S8x1 .f32) (b : Fin 8) :
    k0_pay3 (F := Ideal) v44 v49 v50 (ix2 b (0 : Fin 1))
      = Ideal.div (∑ m : Fin 128, v44 (ix2 b m)) (Ideal.ofBits .f32 0x43000000#32)
        + Ideal.div (v49 (ix2 b (0 : Fin 1))) (v50 (ix2 b (0 : Fin 1)) + Ideal.ofBits .f32 0x322BCC77#32) := by
  unfold k0_pay3
  refine congrArg (fun z : EReal => Ideal.div z (Ideal.ofBits .f32 0x43000000#32)
    + Ideal.div (v49 (ix2 b (0 : Fin 1))) (v50 (ix2 b (0 : Fin 1)) + Ideal.ofBits .f32 0x322BCC77#32)) ?_
  exact (column_apply _ b).trans (sum_over_words _ b)

/-- The reset blocks and the re-typings: -∞ everywhere, zero everywhere, and the identity. -/
theorem reset_rowMax_apply (j : S8x128.Idx) : k0_pay4 (F := Ideal) j = Ideal.ofBits .f32 0xFF800000#32 := by
  unfold k0_pay4
  exact congrFun (shapeCast_self _ _) j
theorem reset_colSum_apply (j : S8x1.Idx) : k0_pay5 (F := Ideal) j = Ideal.ofBits .f32 0x00000000#32 := by
  unfold k0_pay5
  exact congrFun (shapeCast_self _ _) j
theorem reset_maskSum_apply (j : S8x1.Idx) : k0_pay6 (F := Ideal) j = Ideal.ofBits .f32 0x00000000#32 := by
  unfold k0_pay6
  exact congrFun (shapeCast_self _ _) j
theorem cached_words_apply (v56 : FVec Ideal S8x128x512 .f32) (j : S8x128x512.Idx) : k0_pay7 (F := Ideal) v56 j = v56 j := by
  unfold k0_pay7
  exact congrFun (shapeCast_self _ _) j
theorem restored_apply (v30 : FVec Ideal S8x1 .f32) (j : S8x1.Idx) : k0_pay1 (F := Ideal) v30 j = v30 j := by
  unfold k0_pay1
  exact congrFun (shapeCast_self _ _) j

end Cert.KernelIdeal.Tiles

end
-- ==== Proof.TwoTiles.lean ====
/-
  Regrouping a maximum and a sum over 1024 patches into two tiles of 512.

  A running maximum started at `b`, joined with the maximum of the first 512 entries (itself started at `b`) and
  then with the maximum of the last 512, is the maximum of all 1024 started at `b`: `max` is associative,
  commutative and idempotent, and a fold of `max` is characterised by its upper bounds.  A running sum started at
  `z`, advanced by the sum of the first 512 entries and then by the sum of the last 512, is `z` plus the sum of all
  1024: addition on the extended reals is associative and commutative, infinities included, so no entry needs to be
  finite.  Entry `n` of the second tile is entry `512 + n` of the whole.
-/
import Mathlib.Data.EReal.Basic
import Mathlib.Algebra.BigOperators.Fin
import Mathlib.Data.Finset.Fold

namespace Cert.Pooling

/-- Entry `q` of tile `0` and of tile `1`, as an entry of the whole. -/
abbrev lo (q : Fin 512) : Fin 1024 := ⟨q.val, by have := q.isLt; omega⟩
abbrev hi (q : Fin 512) : Fin 1024 := ⟨512 + q.val, by have := q.isLt; omega⟩

theorem forall_two_tiles (p : Fin 1024 → Prop) : (∀ n, p n) ↔ (∀ q, p (lo q)) ∧ (∀ q, p (hi q)) := by
  constructor
  · intro h; exact ⟨fun q => h _, fun q => h _⟩
  · rintro ⟨h0, h1⟩ n
    by_cases hn : n.val < 512
    · exact (show lo ⟨n.val, hn⟩ = n from Fin.ext rfl) ▸ h0 ⟨n.val, hn⟩
    · have hlt : n.val - 512 < 512 := by have := n.isLt; omega
      exact (show hi ⟨n.val - 512, hlt⟩ = n from Fin.ext (by show 512 + (n.val - 512) = n.val; omega)) ▸ h1 ⟨n.val - 512, hlt⟩

/-- The maximum over two tiles, each started at `b`, the first joined with `b` once more. -/
theorem fold_max_two_tiles (b : EReal) (f : Fin 1024 → EReal) :
    max (max b ((Finset.univ : Finset (Fin 512)).fold max b (fun q => f (lo q))))
        ((Finset.univ : Finset (Fin 512)).fold max b (fun q => f (hi q)))
      = (Finset.univ : Finset (Fin 1024)).fold max b f := by
  refine eq_of_forall_ge_iff fun c => ?_
  simp only [max_le_iff, Finset.fold_max_le, Finset.mem_univ, true_implies]
  rw [forall_two_tiles (fun n => f n ≤ c)]
  tauto

/-- The sum over two tiles, advanced from `z`. -/
theorem sum_two_tiles (z : EReal) (f : Fin 1024 → EReal) :
    (z + ∑ q : Fin 512, f (lo q)) + ∑ q : Fin 512, f (hi q) = z + ∑ n : Fin 1024, f n := by
  have h : ∑ n : Fin 1024, f n = ∑ q : Fin 512, f (lo q) + ∑ q : Fin 512, f (hi q) :=
    Fin.sum_univ_add (a := 512) (b := 512) (show Fin (512 + 512) → EReal from f)
  rw [h, add_assoc]

end Cert.Pooling
-- ==== Proof.PooledTwoTiles.lean ====
/-
  The pooled similarity of one batch entry, accumulated over two patch tiles.

  Run over tile 0 and then tile 1, the three running quantities end at: per word, the running maximum from -∞ joined
  with each tile's maximum (itself from -∞) of the rectified similarity less the penalty; the zero word advanced by each
  tile's mask-weighted sum of column maxima; the zero word advanced by each tile's mask sum.  The result formed from
  them — the row maxima summed over the words and divided by 128, plus the weighted sum over the mask sum plus the
  small word — is the pooled similarity of that entry: a maximum and a sum over 1024 patches regroup into two tiles of
  512 (entry q of tile 1 being patch 512 + q), and the sum of the row maxima started from the zero word is that sum,
  the zero word denoting 0.
-/
import proofs.«136121_j979252544026_2_alg».proof.Proof.Pooling
import proofs.«136121_j979252544026_2_alg».proof.Proof.TwoTiles
import Idealize.ShloMosaic.PureOps.Ideal.Laws

noncomputable section

namespace Cert.Pooling

open Idealize.ShloMosaic Idealize.ShloMosaic.ValueIdx

variable (P : SPatch.Idx → EReal) (W : SWord.Idx → EReal) (K : SMask.Idx → EReal)

/-- Word m's rectified similarity to patch n less patch n's penalty. -/
def rowTerm (b : Fin 256) (m : Fin 128) (n : Fin 1024) : EReal := leaky (sim P W b m n) - penalty K b n

/-- Patch n's column maximum weighted by its mask entry. -/
def colTerm (b : Fin 256) (n : Fin 1024) : EReal := colMax P W b n * K (ix2 b n)

theorem pooled_two_tiles (b : Fin 256) :
    Ideal.div (∑ m : Fin 128,
        max (max (Ideal.ofBits .f32 0xFF800000#32)
              ((Finset.univ : Finset (Fin 512)).fold max (Ideal.ofBits .f32 0xFF800000#32) (fun q => rowTerm P W K b m (lo q))))
            ((Finset.univ : Finset (Fin 512)).fold max (Ideal.ofBits .f32 0xFF800000#32) (fun q => rowTerm P W K b m (hi q))))
        (Ideal.ofBits .f32 0x43000000#32)
      + Ideal.div ((Ideal.ofBits .f32 0x00000000#32 + ∑ q : Fin 512, colTerm P W K b (lo q)) + ∑ q : Fin 512, colTerm P W K b (hi q))
          (((Ideal.ofBits .f32 0x00000000#32 + ∑ q : Fin 512, K (ix2 b (lo q))) + ∑ q : Fin 512, K (ix2 b (hi q)))
            + Ideal.ofBits .f32 0x322BCC77#32)
      = pooled P W K (ix2 b (0 : Fin 1)) := by
  show _ = rowMean P W K b + colMean P W K b
  rw [sum_two_tiles _ (fun n => colTerm P W K b n), sum_two_tiles _ (fun n => K (ix2 b n)),
    Finset.sum_congr rfl fun m _ => fold_max_two_tiles (Ideal.ofBits .f32 0xFF800000#32) (fun n => rowTerm P W K b m n)]
  unfold rowMean colMean
  simp only [Ideal.ofBits_zero_f32, zero_add]
  rfl

end Cert.Pooling

end
-- ==== Proof.TwoTileValue.lean ====
/-
  The value a last tile stores, from the two tiles' blocks.

  Suppose the batch block's 8 entries are the entries `R b` of the arrays: the last tile's patch block reads the
  patches `512 + q` of those entries and its mask block their mask entries, the first tile's blocks read the patches
  `q` and their mask entries, and the word block reads their words.  Then what the last tile stores at (b, 0) — the
  pooled result of the running row maxima, weighted column sum and mask sum, each reset and advanced by the first tile
  and advanced again by the last — is the pooled similarity of entry `R b`.
-/
import proofs.«136121_j979252544026_2_alg».proof.Proof.TileArithmetic
import proofs.«136121_j979252544026_2_alg».proof.Proof.PooledTwoTiles

noncomputable section

open Idealize.ShloMosaic Idealize.ShloMosaic.ValueIdx

namespace Cert.KernelIdeal.Tiles

open Cert.KernelIdeal Cert.KernelIdeal.Gen
open Cert.Pooling (lo hi rowTerm colTerm pooled_two_tiles)

variable (P : Cert.Pooling.SPatch.Idx → EReal) (W : Cert.Pooling.SWord.Idx → EReal) (K : Cert.Pooling.SMask.Idx → EReal)
variable (R : Fin 8 → Fin 256)
variable (x0 x0' : FVec Ideal S8x512x512 .f32) (x1' : FVec Ideal S8x128x512 .f32) (x2 x2' : FVec Ideal S8x512 .f32)

/-- One tile's rectified entry less its penalty is the row term of the patch the tile's entry q stands for. -/
theorem rowTerm_of_blocks (T : Fin 512 → Fin 1024) (y0 : FVec Ideal S8x512x512 .f32) (y2 : FVec Ideal S8x512 .f32)
    (hP : ∀ b q c, y0 (ix3 b q c) = P (ix3 (R b) (T q) c)) (hW : ∀ b m c, x1' (ix3 b m c) = W (ix3 (R b) m c))
    (hK : ∀ b q, y2 (ix2 b q) = K (ix2 (R b) (T q))) (b : Fin 8) (m : Fin 128) (q : Fin 512) :
    k0_pay8 (F := Ideal) y0 (k0_pay7 (F := Ideal) x1') (ix3 b m q)
        - Ideal.ofBits .f32 0x447A0000#32 * (Ideal.ofBits .f32 0x3F800000#32 - y2 (ix2 b q))
      = rowTerm P W K (R b) m (T q) := by
  rw [rectified_apply, hK]
  simp only [cached_words_apply, hP, hW]
  rfl

/-- One tile's maximum over the words, weighted by its mask entry, is the column term of the patch entry q stands for. -/
theorem colTerm_of_blocks (T : Fin 512 → Fin 1024) (y0 : FVec Ideal S8x512x512 .f32) (y2 : FVec Ideal S8x512 .f32)
    (hP : ∀ b q c, y0 (ix3 b q c) = P (ix3 (R b) (T q) c)) (hW : ∀ b m c, x1' (ix3 b m c) = W (ix3 (R b) m c))
    (hK : ∀ b q, y2 (ix2 b q) = K (ix2 (R b) (T q))) (b : Fin 8) (q : Fin 512) :
    ((Finset.univ : Finset (Fin 128)).fold max (Ideal.ofBits .f32 0xFF800000#32)
        (fun m => k0_pay8 (F := Ideal) y0 (k0_pay7 (F := Ideal) x1') (ix3 b m q))) * y2 (ix2 b q)
      = colTerm P W K (R b) (T q) := by
  rw [hK]
  refine congrArg (fun z : EReal => z * K (ix2 (R b) (T q))) ?_
  refine congrArg (fun f => (Finset.univ : Finset (Fin 128)).fold max (Ideal.ofBits .f32 0xFF800000#32) f) (funext fun m => ?_)
  rw [rectified_apply]
  simp only [cached_words_apply, hP, hW]
  rfl

theorem last_tile_pooled
    (hP : ∀ b q c, x0 (ix3 b q c) = P (ix3 (R b) (hi q) c))
    (hP' : ∀ b q c, x0' (ix3 b q c) = P (ix3 (R b) (lo q) c))
    (hW : ∀ b m c, x1' (ix3 b m c) = W (ix3 (R b) m c))
    (hK : ∀ b q, x2 (ix2 b q) = K (ix2 (R b) (hi q)))
    (hK' : ∀ b q, x2' (ix2 b q) = K (ix2 (R b) (lo q))) (b : Fin 8) :
    k0_pay3 (F := Ideal) (k0_pay9 (F := Ideal) x0 (k0_pay7 (F := Ideal) x1') x2 (k0_pay9 (F := Ideal) x0' (k0_pay7 (F := Ideal) x1') x2' (k0_pay4 (F := Ideal))))
        (k0_pay1 (F := Ideal) (k0_pay10 (F := Ideal) x0 (k0_pay7 (F := Ideal) x1') x2 (k0_pay1 (F := Ideal) (k0_pay10 (F := Ideal) x0' (k0_pay7 (F := Ideal) x1') x2' (k0_pay5 (F := Ideal))))))
        (k0_pay2 (F := Ideal) x2 (k0_pay2 (F := Ideal) x2' (k0_pay6 (F := Ideal)))) (ix2 b (0 : Fin 1))
      = Cert.Pooling.pooled P W K (ix2 (R b) (0 : Fin 1)) := by
  have rowE : ∀ m : Fin 128,
      k0_pay9 (F := Ideal) x0 (k0_pay7 (F := Ideal) x1') x2 (k0_pay9 (F := Ideal) x0' (k0_pay7 (F := Ideal) x1') x2' (k0_pay4 (F := Ideal))) (ix2 b m)
        = max (max (Ideal.ofBits .f32 0xFF800000#32)
              ((Finset.univ : Finset (Fin 512)).fold max (Ideal.ofBits .f32 0xFF800000#32) (fun q => rowTerm P W K (R b) m (lo q))))
            ((Finset.univ : Finset (Fin 512)).fold max (Ideal.ofBits .f32 0xFF800000#32) (fun q => rowTerm P W K (R b) m (hi q))) := fun m => by
    rw [rowMax_step_apply, rowMax_step_apply, reset_rowMax_apply]
    refine congrArg₂ max (congrArg (max _) (congrArg (fun f => (Finset.univ : Finset (Fin 512)).fold max _ f) (funext fun q => ?_)))
      (congrArg (fun f => (Finset.univ : Finset (Fin 512)).fold max _ f) (funext fun q => ?_))
    · exact rowTerm_of_blocks P W K R x1' lo x0' x2' hP' hW hK' b m q
    · exact rowTerm_of_blocks P W K R x1' hi x0 x2 hP hW hK b m q
  have colE : k0_pay1 (F := Ideal) (k0_pay10 (F := Ideal) x0 (k0_pay7 (F := Ideal) x1') x2 (k0_pay1 (F := Ideal) (k0_pay10 (F := Ideal) x0' (k0_pay7 (F := Ideal) x1') x2' (k0_pay5 (F := Ideal))))) (ix2 b (0 : Fin 1))
      = (Ideal.ofBits .f32 0x00000000#32 + ∑ q : Fin 512, colTerm P W K (R b) (lo q)) + ∑ q : Fin 512, colTerm P W K (R b) (hi q) := by
    rw [restored_apply, colSum_step_apply, restored_apply, colSum_step_apply, reset_colSum_apply]
    refine congrArg₂ (fun u v : EReal => u + v) (congrArg (fun v : EReal => Ideal.ofBits .f32 0x00000000#32 + v)
      (Finset.sum_congr rfl fun q _ => ?_)) (Finset.sum_congr rfl fun q _ => ?_)
    · exact colTerm_of_blocks P W K R x1' lo x0' x2' hP' hW hK' b q
    · exact colTerm_of_blocks P W K R x1' hi x0 x2 hP hW hK b q
  have maskE : k0_pay2 (F := Ideal) x2 (k0_pay2 (F := Ideal) x2' (k0_pay6 (F := Ideal))) (ix2 b (0 : Fin 1))
      = (Ideal.ofBits .f32 0x00000000#32 + ∑ q : Fin 512, K (ix2 (R b) (lo q))) + ∑ q : Fin 512, K (ix2 (R b) (hi q)) := by
    rw [maskSum_step_apply, maskSum_step_apply, reset_maskSum_apply]
    simp only [hK, hK']
  rw [pooled_state_apply, Finset.sum_congr rfl fun m _ => rowE m, colE, maskE]
  exact pooled_two_tiles P W K (R b)

end Cert.KernelIdeal.Tiles

end
-- ==== Proof.KernelPooled.lean ====
/-
  The kernel's result array is the pooled similarity.

  Grid point t = 2 i + j handles batch block i (entries 8 i .. 8 i + 7) and patch tile j.  Its patch block reads the
  patches 512 j + q of those entries, its mask block their mask entries, its word block their words whatever j.  The
  result block (rows 8 i .. 8 i + 7) is stored at the odd points only, and written back there only.  At an odd point the
  stored block is the last tile's value over what the even point before it left, so by the two-tile value it is the
  pooled similarity of the block's rows; the odd points' blocks cover every row (row r lies in the block of point
  2 (r / 8) + 1), so the array ends holding the pooled similarity everywhere.
-/
import proofs.«136121_j979252544026_2_alg».proof.Proof.Gen.KernelIdeal.Value
import proofs.«136121_j979252544026_2_alg».proof.Proof.TileState
import proofs.«136121_j979252544026_2_alg».proof.Proof.TwoTileValue
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pooled

open Cert.KernelIdeal Cert.KernelIdeal.Gen Cert.KernelIdeal.Value Cert.KernelIdeal.Tiles
open Cert.Pooling (lo hi)

variable (m : (ℓ : Loc nD τ sig) → Buf (Elt Ideal) ℓ) (ρ : Dev nD → PrngReg)

/-- The printed index maps over the grid: the batch block is t / 2 for every window, the patch tile t % 2 for the patch
    and mask windows, and every other block coordinate is 0. -/
theorem index_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = t.val / 2 ∧ win0_2.index t (1 : Fin 2) = t.val % 2
    ∧ win0_3.index t (0 : Fin 2) = t.val / 2 ∧ win0_3.index t (1 : Fin 2) = 0 :=
  (by decide +kernel : ∀ t : Fin grid0.N, _)

/-- Row b of the batch block that point t handles, as a row of the arrays: 8 (t / 2) + b. -/
def blockRow (t : Fin cfg0.N) (b : Fin 8) : Fin 256 :=
  ⟨8 * (t.val / 2) + b.val, by have := t.isLt; have hN : cfg0.N = 64 := N_0; have := b.isLt; omega⟩

/-- The patch block at point t reads entry R b, patch T q, when R and T are the block's rows and patches. -/
theorem patch_block (c : Dev nD) (t : Fin cfg0.N) (R : Fin 8 → Fin 256) (T : Fin 512 → Fin 1024)
    (hR : ∀ b, (R b).val = 8 * (t.val / 2) + b.val) (hT : ∀ q, (T q).val = 512 * (t.val % 2) + q.val)
    (b : Fin 8) (q : Fin 512) (ch : Fin 512) :
    (iblk m c 0 t : FVec Ideal S8x512x512 .f32) (ix3 b q ch) = m ((c : Thread nD τ).loc main_arg0) (ix3 (R b) (T q) ch) := by
  obtain ⟨e0, e1, e2, -⟩ := index_facts t
  unfold iblk
  rw [View.read_apply]
  show V m c main_arg0 _ = _
  refine congrArg (m ((c : Thread nD τ).loc main_arg0)) (funext fun a => Fin.ext ?_)
  match a with
  | ⟨0, _⟩ => show win0_0.index t (0 : Fin 3) * 8 + 1 * b.val = (R b).val; rw [e0, hR]; omega
  | ⟨1, _⟩ => show win0_0.index t (1 : Fin 3) * 512 + 1 * q.val = (T q).val; rw [e1, hT]; omega
  | ⟨2, _⟩ => show win0_0.index t (2 : Fin 3) * 512 + 1 * ch.val = ch.val; rw [e2]; omega

/-- The word block at point t reads entry R b's words. -/
theorem word_block (c : Dev nD) (t : Fin cfg0.N) (R : Fin 8 → Fin 256) (hR : ∀ b, (R b).val = 8 * (t.val / 2) + b.val)
    (b : Fin 8) (w : Fin 128) (ch : Fin 512) :
    (iblk m c 1 t : FVec Ideal S8x128x512 .f32) (ix3 b w ch) = m ((c : Thread nD τ).loc main_arg1) (ix3 (R b) w ch) := by
  obtain ⟨-, -, -, e0, e1, e2, -⟩ := index_facts t
  unfold iblk
  rw [View.read_apply]
  show V m c main_arg1 _ = _
  refine congrArg (m ((c : Thread nD τ).loc main_arg1)) (funext fun a => Fin.ext ?_)
  match a with
  | ⟨0, _⟩ => show win0_1.index t (0 : Fin 3) * 8 + 1 * b.val = (R b).val; rw [e0, hR]; omega
  | ⟨1, _⟩ => show win0_1.index t (1 : Fin 3) * 128 + 1 * w.val = w.val; rw [e1]; omega
  | ⟨2, _⟩ => show win0_1.index t (2 : Fin 3) * 512 + 1 * ch.val = ch.val; rw [e2]; omega

/-- The mask block at point t reads entry R b, patch T q. -/
theorem mask_block (c : Dev nD) (t : Fin cfg0.N) (R : Fin 8 → Fin 256) (T : Fin 512 → Fin 1024)
    (hR : ∀ b, (R b).val = 8 * (t.val / 2) + b.val) (hT : ∀ q, (T q).val = 512 * (t.val % 2) + q.val)
    (b : Fin 8) (q : Fin 512) :
    (iblk m c 2 t : FVec Ideal S8x512 .f32) (ix2 b q) = m ((c : Thread nD τ).loc main_arg2) (ix2 (R b) (T q)) := by
  obtain ⟨-, -, -, -, -, -, e0, e1, -⟩ := index_facts t
  unfold iblk
  rw [View.read_apply]
  show V m c main_arg2 _ = _
  refine congrArg (m ((c : Thread nD τ).loc main_arg2)) (funext fun a => Fin.ext ?_)
  match a with
  | ⟨0, _⟩ => show win0_2.index t (0 : Fin 2) * 8 + 1 * b.val = (R b).val; rw [e0, hR]; omega
  | ⟨1, _⟩ => show win0_2.index t (1 : Fin 2) * 512 + 1 * q.val = (T q).val; rw [e1, hT]; omega

/-- What an even point leaves: the four running quantities reset and advanced by its own blocks. -/
theorem rowMax_after_first (c : Dev nD) (t : Fin cfg0.N) (h0 : t.val % 2 = 0) (h1 : ¬t.val % 2 = 1) :
    (outsAt0 m c t.val t.isLt).2.1 = k0_pay9 (F := Ideal) (iblk m c 0 t) (k0_pay7 (F := Ideal) (iblk m c 1 t)) (iblk m c 2 t) (k0_pay4 (F := Ideal)) := by
  rw [outsAt0_A m c t h0 h1]
  dsimp only
  exact rowMax_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)
theorem colSum_after_first (c : Dev nD) (t : Fin cfg0.N) (h0 : t.val % 2 = 0) (h1 : ¬t.val % 2 = 1) :
    (outsAt0 m c t.val t.isLt).2.2.1 = k0_pay1 (F := Ideal) (k0_pay10 (F := Ideal) (iblk m c 0 t) (k0_pay7 (F := Ideal) (iblk m c 1 t)) (iblk m c 2 t) (k0_pay5 (F := Ideal))) := by
  rw [outsAt0_A m c t h0 h1]
  dsimp only
  exact colSum_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)
theorem maskSum_after_first (c : Dev nD) (t : Fin cfg0.N) (h0 : t.val % 2 = 0) (h1 : ¬t.val % 2 = 1) :
    (outsAt0 m c t.val t.isLt).2.2.2.1 = k0_pay2 (F := Ideal) (iblk m c 2 t) (k0_pay6 (F := Ideal)) := by
  rw [outsAt0_A m c t h0 h1]
  dsimp only
  exact maskSum_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)
theorem words_after_first (c : Dev nD) (t : Fin cfg0.N) (h0 : t.val % 2 = 0) (h1 : ¬t.val % 2 = 1) :
    (outsAt0 m c t.val t.isLt).2.2.2.2 = k0_pay7 (F := Ideal) (iblk m c 1 t) := by
  rw [outsAt0_A m c t h0 h1]
  dsimp only
  exact words_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- What an odd point stores: the pooled result of the state the point before left, advanced by its own blocks. -/
theorem stored_at_last (c : Dev nD) (t : Fin cfg0.N) (h0 : ¬t.val % 2 = 0) (h1 : t.val % 2 = 1) :
    (outsAt0 m c t.val t.isLt).1
      = k0_pay3 (F := Ideal) (k0_pay9 (F := Ideal) (iblk m c 0 t) (outsAt0 m c (t.val - 1) (Nat.lt_of_le_of_lt (Nat.sub_le _ _) t.isLt)).2.2.2.2 (iblk m c 2 t) (outsAt0 m c (t.val - 1) (Nat.lt_of_le_of_lt (Nat.sub_le _ _) t.isLt)).2.1)
          (k0_pay1 (F := Ideal) (k0_pay10 (F := Ideal) (iblk m c 0 t) (outsAt0 m c (t.val - 1) (Nat.lt_of_le_of_lt (Nat.sub_le _ _) t.isLt)).2.2.2.2 (iblk m c 2 t) (outsAt0 m c (t.val - 1) (Nat.lt_of_le_of_lt (Nat.sub_le _ _) t.isLt)).2.2.1))
          (k0_pay2 (F := Ideal) (iblk m c 2 t) (outsAt0 m c (t.val - 1) (Nat.lt_of_le_of_lt (Nat.sub_le _ _) t.isLt)).2.2.2.1) := by
  rw [outsAt0_B m c t h0 h1]
  dsimp only
  exact result_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

abbrev pooledOf (c : Dev nD) : Cert.Pooling.SOut.Idx → EReal :=
  Cert.Pooling.pooled (m ((c : Thread nD τ).loc main_arg0)) (m ((c : Thread nD τ).loc main_arg1)) (m ((c : Thread nD τ).loc main_arg2))

/-- WHAT A FLUSHING POINT WRITES BACK is its block of the pooled similarity. -/
theorem flushed_pooled (c : Dev nD) (t : Fin cfg0.N) (hf : (cfg0.win 3).flush t = true) :
    (dats m 0 c).flushed 3 t = ((cfg0.win 3).blk t).view.read (Elt Ideal) (pooledOf m c) := by
  have h1 : t.val % 2 = 1 := (flush0_3 t).mp hf
  have h0 : ¬t.val % 2 = 0 := by omega
  have hN : cfg0.N = 64 := N_0
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  obtain ⟨-, -, -, -, -, -, -, -, e0, e1⟩ := index_facts t
  show (cfg0.win 3).cut (grid0.coords t) ((dats m 0 c).after 3 t) = _
  rw [after0_3, stored_at_last m c t h0 h1,
    rowMax_after_first m c ⟨t.val - 1, hlt⟩ h0' h1', colSum_after_first m c ⟨t.val - 1, hlt⟩ h0' h1',
    maskSum_after_first m c ⟨t.val - 1, hlt⟩ h0' h1', words_after_first m c ⟨t.val - 1, hlt⟩ h0' h1']
  funext j
  have hb : (j 0).val < 8 := (j 0).isLt
  have hz : (j 1).val < 1 := (j 1).isLt
  obtain ⟨b, rfl⟩ : ∃ b : Fin 8, j = ix2 b (0 : Fin 1) :=
    ⟨⟨(j 0).val, hb⟩, funext fun a => Fin.ext (by match a with | ⟨0, _⟩ => rfl | ⟨1, _⟩ => show (j 1).val = 0; omega)⟩
  refine (last_tile_pooled (m ((c : Thread nD τ).loc main_arg0)) (m ((c : Thread nD τ).loc main_arg1)) (m ((c : Thread nD τ).loc main_arg2))
    (blockRow t) (iblk m c 0 t) (iblk m c 0 ⟨t.val - 1, hlt⟩) (iblk m c 1 ⟨t.val - 1, hlt⟩)
    (iblk m c 2 t) (iblk m c 2 ⟨t.val - 1, hlt⟩)
    (fun b q ch => patch_block m c t (blockRow t) hi (fun _ => rfl) (fun q => by show 512 + q.val = 512 * (t.val % 2) + q.val; rw [h1]) b q ch)
    (fun b q ch => patch_block m c ⟨t.val - 1, hlt⟩ (blockRow t) lo (fun b => by show 8 * (t.val / 2) + b.val = 8 * ((t.val - 1) / 2) + b.val; omega)
      (fun q => by show q.val = 512 * ((t.val - 1) % 2) + q.val; omega) b q ch)
    (fun b w ch => word_block m c ⟨t.val - 1, hlt⟩ (blockRow t) (fun b => by show 8 * (t.val / 2) + b.val = 8 * ((t.val - 1) / 2) + b.val; omega) b w ch)
    (fun b q => mask_block m c t (blockRow t) hi (fun _ => rfl) (fun q => by show 512 + q.val = 512 * (t.val % 2) + q.val; rw [h1]) b q)
    (fun b q => mask_block m c ⟨t.val - 1, hlt⟩ (blockRow t) lo (fun b => by show 8 * (t.val / 2) + b.val = 8 * ((t.val - 1) / 2) + b.val; omega)
      (fun q => by show q.val = 512 * ((t.val - 1) % 2) + q.val; omega) b q)
    b).trans ?_
  rw [View.read_apply]
  refine congrArg (pooledOf m c) (funext fun a => Fin.ext ?_)
  match a with
  | ⟨0, _⟩ => show 8 * (t.val / 2) + b.val = win0_3.index t (0 : Fin 2) * 8 + 1 * b.val; rw [e0]; omega
  | ⟨1, _⟩ => show 0 = win0_3.index t (1 : Fin 2) * 1 + 1 * 0; rw [e1]

/-- An index of the result array is in point t's block iff each coordinate is in the block's range on its axis. -/
theorem mem_result_block (t : Fin cfg0.N) (i : S256x1.Idx) :
    i ∈ ((cfg0.win 3).blk t).view.set
      ↔ ∀ a : Fin 2, win0_3.index t a * S8x1.size a ≤ (i a).val ∧ (i a).val < win0_3.index t a * S8x1.size a + S8x1.size a := by
  show i ∈ ((View.whole main_v0).slice (win0_3.rect t)).set ↔ _
  rw [View.set_slice_whole, Rect.mem_set_unit]
  exact Iff.rfl

/-- THE ARRAY after the run is the pooled similarity: row r lies in the block the odd point 2 (r / 8) + 1 writes back. -/
theorem final_pooled (c : Dev nD) : (dats m 0 c).arrAt 3 cfg0.N = pooledOf m c :=
  (dats m 0 c).arrAt_eq_of_cover 3 (pooledOf m c) (flushed_pooled m c) fun i => by
    have hN : cfg0.N = 64 := N_0
    have hi0 : (i 0).val < 256 := (i 0).isLt
    have hi1 : (i 1).val < 1 := (i 1).isLt
    have hlt : 2 * ((i 0).val / 8) + 1 < cfg0.N := by omega
    refine ⟨⟨2 * ((i 0).val / 8) + 1, hlt⟩, (flush0_3 _).mpr (by show (2 * ((i 0).val / 8) + 1) % 2 = 1; omega), ?_⟩
    obtain ⟨-, -, -, -, -, -, -, -, e0, e1⟩ := index_facts ⟨2 * ((i 0).val / 8) + 1, hlt⟩
    rw [mem_result_block]
    intro a
    match a with
    | ⟨0, _⟩ =>
      show win0_3.index ⟨2 * ((i 0).val / 8) + 1, hlt⟩ (0 : Fin 2) * 8 ≤ (i 0).val
        ∧ (i 0).val < win0_3.index ⟨2 * ((i 0).val / 8) + 1, hlt⟩ (0 : Fin 2) * 8 + 8
      rw [e0]; show (2 * ((i 0).val / 8) + 1) / 2 * 8 ≤ (i 0).val ∧ (i 0).val < (2 * ((i 0).val / 8) + 1) / 2 * 8 + 8; omega
    | ⟨1, _⟩ =>
      show win0_3.index ⟨2 * ((i 0).val / 8) + 1, hlt⟩ (1 : Fin 2) * 1 ≤ (i 1).val
        ∧ (i 1).val < win0_3.index ⟨2 * ((i 0).val / 8) + 1, hlt⟩ (1 : Fin 2) * 1 + 1
      rw [e1]; omega

/-- The run, read: the result array at the pooled similarity of the argument arrays, the arguments unchanged. -/
theorem run : θ_run defs (onTc (τ := τ) (main (F := Ideal))) ⟨m, fun _ => 0, ρ⟩ fun r => ∀ c : Dev nD,
      r.2.mem ((c : Thread nD τ).loc main_v0) = pooledOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_pooled m c), (h c).2⟩) (run_blocks m ρ)

end Cert.KernelIdeal.Pooled

end
-- ==== Proof.Slope.lean ====
/-
  The leaky slope on the extended reals.  For a real factor `a` with `0 ≤ a ≤ 1` the two spellings of the
  leaky rectifier agree at every extended real `s`, the infinities included:
  `max s (a * s) = if 0 ≤ s then s else a * s`.
  For `0 ≤ s` the product `a * s` does not exceed `s`; for `s < 0` it is not below `s`.
-/
import Idealize.ShloMosaic.PureOps.Ideal

noncomputable section

namespace Cert.Pooling

open Idealize.ShloMosaic

/-- The slope word has sign 0, exponent field 123 and fraction field 0x4CCCCD = 5033165, so it denotes
    (2^23 + 5033165) * 2^(123 - 127 - 23) = 13421773 / 2^27. -/
theorem slope_word : Ideal.ofBits .f32 0x3DCCCCCD#32 = ((13421773 / 134217728 : ℝ) : EReal) := by
  simp [Ideal.ofBits, Ideal.ieee]
  norm_cast

/-- The all-zero word denotes the extended real 0. -/
theorem zero_word : Ideal.ofBits .f32 0x00000000#32 = 0 := by simp [Ideal.ofBits, Ideal.ieee]

/-- For a real factor in [0, 1] the maximum of s and r * s picks s on the nonnegative side and r * s on the negative
    side, at every extended real: r * s ≤ 1 * s = s when 0 ≤ s; s ≤ r * s when s < 0 (at -∞ trivially, at a real x
    because (1 - r) * x ≤ 0). -/
theorem max_mul_eq_ite (r : ℝ) (h0 : 0 ≤ r) (h1 : r ≤ 1) (s : EReal) :
    max s ((r : EReal) * s) = if 0 ≤ s then s else (r : EReal) * s := by
  split_ifs with hs
  · apply max_eq_left
    calc (r : EReal) * s ≤ (1 : EReal) * s := mul_le_mul_of_nonneg_right (by exact_mod_cast h1) hs
      _ = s := one_mul s
  · apply max_eq_right
    have hs := not_le.mp hs
    induction s using EReal.rec with
    | bot => exact bot_le
    | coe x =>
      have hx : x < 0 := by exact_mod_cast hs
      rw [← EReal.coe_mul]
      exact_mod_cast (by nlinarith : x ≤ r * x)
    | top => exact absurd hs (by simp)

/-- The comparison-and-choice spelling of the rectifier is the maximum spelling: the test 's ≥ 0' against the zero word
    picks s exactly where 0 ≤ s, and the slope word is a real in [0, 1]. -/
theorem select_ge_eq_max (s : EReal) :
    Scalar.select (Ideal.cmp .oge s (Ideal.ofBits .f32 0x00000000#32)) s (Ideal.ofBits .f32 0x3DCCCCCD#32 * s)
      = max s (Ideal.ofBits .f32 0x3DCCCCCD#32 * s) := by
  rw [slope_word, max_mul_eq_ite _ (by norm_num) (by norm_num), zero_word]
  by_cases hs : 0 ≤ s
  · rw [if_pos hs]
    have : Ideal.cmp .oge s 0 = 1#1 := by simp [Ideal.cmp, hs]
    rw [this]; exact if_pos rfl
  · rw [if_neg hs]
    have : Ideal.cmp .oge s 0 = 0#1 := by simp [Ideal.cmp, hs]
    rw [this]; exact if_neg (by decide)

end Cert.Pooling

end
-- ==== Proof.ReferencePooled.lean ====
/-
  The reference program's last stage is the pooled similarity.

  Stage by stage, at explicit coordinates: the batched inner product at (b, m, n) is the similarity sim b m n; the
  comparison-and-choice stage is the leaky rectifier of it; the broadcast penalty stage at (b, m, n) is
  1000 * (1 - mask (b, n)), whatever m; the maximum over the patch axis at (b, m) is the row maximum and the maximum
  over the word axis at (b, n) the column maximum (a one-axis maximum from the word for -∞ is the fold of max over
  that axis's coordinates, and the index with the coordinate inserted is the triple one expects); the two sums with
  their divisions are the two pooled means; their sum is the result.
-/
import proofs.«136121_j979252544026_2_alg».proof.Proof.Gen.ReferenceIdeal.Read
import proofs.«136121_j979252544026_2_alg».proof.Proof.Pooling
import proofs.«136121_j979252544026_2_alg».proof.Proof.Slope
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Pooling
open Idealize.ShloMosaic Idealize.ShloMosaic.ValueIdx

variable (x0 : (⟨Cert.ReferenceIdeal.S256x1024x512, .f32⟩ : BufTy).Contents (Elt Ideal))
  (x1 : (⟨Cert.ReferenceIdeal.S256x128x512, .f32⟩ : BufTy).Contents (Elt Ideal))
  (x2 : (⟨Cert.ReferenceIdeal.S256x1024, .f32⟩ : BufTy).Contents (Elt Ideal))

/-- The batched inner product at (b, m, n): word (b, m, c) times patch (b, n, c), summed over the channels c. -/
theorem dot_at (b : Fin 256) (m : Fin 128) (n : Fin 1024) :
    val_main_v0 (F := Ideal) x0 x1 (ix3 b m n) = sim x0 x1 b m n := by
  rw [val_main_v0_apply]
  refine Finset.sum_congr rfl fun c _ => ?_
  have el : lidx_main_v0 (ix3 b m n) c = ix3 b m c :=
    funext fun a => Fin.ext (by match a with | ⟨0, _⟩ => rfl | ⟨1, _⟩ => rfl | ⟨2, _⟩ => rfl)
  have er : ridx_main_v0 (ix3 b m n) c = ix3 b n c :=
    funext fun a => Fin.ext (by match a with | ⟨0, _⟩ => rfl | ⟨1, _⟩ => rfl | ⟨2, _⟩ => rfl)
  rw [el, er]

/-- The choice between s and slope * s on the test s ≥ 0 is the leaky rectifier of the similarity. -/
theorem leaky_at (b : Fin 256) (m : Fin 128) (n : Fin 1024) :
    val_main_v5 (F := Ideal) x0 x1 (ix3 b m n) = leaky (sim x0 x1 b m n) := by
  rw [val_main_v5_apply, val_main_v2_apply, val_main_v4_apply, val_main_v1_apply, val_main_v3_apply,
    val_main_cst_apply, val_main_cst_0_apply, dot_at]
  exact select_ge_eq_max _

/-- The penalty stage does not depend on the word: at (b, m, n) it is 1000 * (1 - mask (b, n)). -/
theorem penalty_at (b : Fin 256) (m : Fin 128) (n : Fin 1024) :
    val_main_v11 (F := Ideal) x2 (ix3 b m n) = penalty x2 b n := by
  rw [val_main_v11_apply, val_main_v10_apply, val_main_v9_apply, val_main_v8_apply, val_main_v7_apply,
    val_main_v6_apply, val_main_cst_2_apply, val_main_cst_1_apply]
  have e : idx_main_v8 (idx_main_v11 (ix3 b m n)) = ix2 b n :=
    funext fun a => Fin.ext (by match a with | ⟨0, _⟩ => rfl | ⟨1, _⟩ => rfl)
  rw [e]
  rfl

/-- The rectified similarity less the penalty, at (b, m, n). -/
theorem diff_at (b : Fin 256) (m : Fin 128) (n : Fin 1024) :
    val_main_v12 (F := Ideal) x0 x1 x2 (ix3 b m n) = leaky (sim x0 x1 b m n) - penalty x2 b n := by
  rw [val_main_v12_apply, leaky_at, penalty_at]
  rfl

/-- The maximum over the patch axis at (b, m): the fold of max from the word for -∞ over the patches n of the
    difference at (b, m, n). -/
theorem rowMax_at (b : Fin 256) (m : Fin 128) :
    val_main_v13 (F := Ideal) x0 x1 x2 (ix2 b m) = rowMax x0 x1 x2 b m := by
  have h : S256x128x1024.Reduces [2] S256x128 := by decide
  unfold val_main_v13
  rw [Host.reduce_eq_fold_single FloatOps.maximumf _ _ reducesTo_S256x128x1024_S256x128_d2 h h_S_ (ix2 b m)]
  show Finset.fold max (Ideal.ofBits .f32 0xFF800000#32)
    (fun n : Fin 1024 => val_main_v12 (F := Ideal) x0 x1 x2 (h.lift (ix2 b m) n)) Finset.univ = _
  unfold rowMax
  congr 1
  funext n
  have e : h.lift (ix2 b m) n = ix3 b m n :=
    funext fun a => Fin.ext (by match a with | ⟨0, _⟩ => rfl | ⟨1, _⟩ => rfl | ⟨2, _⟩ => rfl)
  rw [e, diff_at]

/-- The maximum over the word axis at (b, n): the fold of max from the word for -∞ over the words m of the rectified
    similarity at (b, m, n). -/
theorem colMax_at (b : Fin 256) (n : Fin 1024) :
    val_main_v18 (F := Ideal) x0 x1 (ix2 b n) = colMax x0 x1 b n := by
  have h : S256x128x1024.Reduces [1] S256x1024 := by decide
  unfold val_main_v18
  rw [Host.reduce_eq_fold_single FloatOps.maximumf _ _ reducesTo_S256x128x1024_S256x1024_d1 h h_S_ (ix2 b n)]
  show Finset.fold max (Ideal.ofBits .f32 0xFF800000#32)
    (fun m : Fin 128 => val_main_v5 (F := Ideal) x0 x1 (h.lift (ix2 b n) m)) Finset.univ = _
  unfold colMax
  congr 1
  funext m
  have e : h.lift (ix2 b n) m = ix3 b m n :=
    funext fun a => Fin.ext (by match a with | ⟨0, _⟩ => rfl | ⟨1, _⟩ => rfl | ⟨2, _⟩ => rfl)
  rw [e, leaky_at]

/-- The sum of the row maxima over the 128 words, divided by 128. -/
theorem rowMean_at (b : Fin 256) (z : Fin 1) :
    val_main_v17 (F := Ideal) x0 x1 x2 (ix2 b z) = rowMean x0 x1 x2 b := by
  rw [val_main_v17_apply, val_main_v15_apply, val_main_v16_apply, val_main_v14_apply, val_main_cst_5_apply,
    val_main_cst_4_apply]
  have e : ∀ k : Fin 128, val_main_v13 (F := Ideal) x0 x1 x2 (idx_main_v14 (idx_main_v15 (ix2 b z)) k)
      = rowMax x0 x1 x2 b k := fun k => by
    have ei : idx_main_v14 (idx_main_v15 (ix2 b z)) k = ix2 b k :=
      funext fun a => Fin.ext (by match a with | ⟨0, _⟩ => rfl | ⟨1, _⟩ => rfl)
    rw [ei, rowMax_at]
  rw [Finset.sum_congr rfl fun k _ => e k]
  rfl

/-- The mask-weighted sum of the column maxima over the 1024 patches, divided by the mask's sum plus the small word. -/
theorem colMean_at (b : Fin 256) (z : Fin 1) :
    val_main_v26 (F := Ideal) x0 x1 x2 (ix2 b z) = colMean x0 x1 x2 b := by
  rw [val_main_v26_apply, val_main_v21_apply, val_main_v25_apply, val_main_v20_apply, val_main_v23_apply,
    val_main_v24_apply, val_main_v22_apply, val_main_cst_7_apply, val_main_cst_8_apply, val_main_cst_9_apply]
  have e20 : ∀ k : Fin 1024, val_main_v19 (F := Ideal) x0 x1 x2 (idx_main_v20 (idx_main_v21 (ix2 b z)) k)
      = colMax x0 x1 b k * x2 (ix2 b k) := fun k => by
    have ei : idx_main_v20 (idx_main_v21 (ix2 b z)) k = ix2 b k :=
      funext fun a => Fin.ext (by match a with | ⟨0, _⟩ => rfl | ⟨1, _⟩ => rfl)
    rw [ei, val_main_v19_apply, colMax_at]
    rfl
  have e22 : ∀ k : Fin 1024, x2 (idx_main_v22 (idx_main_v23 (ix2 b z)) k) = x2 (ix2 b k) := fun k =>
    congrArg x2 (funext fun a => Fin.ext (by match a with | ⟨0, _⟩ => rfl | ⟨1, _⟩ => rfl))
  rw [Finset.sum_congr rfl fun k _ => e20 k, Finset.sum_congr rfl fun k _ => e22 k]
  rfl

/-- The reference's last stage, the sum of the two pooled means, is the pooled similarity at every index. -/
theorem reference_pooled (x0 : (⟨Cert.ReferenceIdeal.S256x1024x512, .f32⟩ : BufTy).Contents (Elt Ideal)) (x1 : (⟨Cert.ReferenceIdeal.S256x128x512, .f32⟩ : BufTy).Contents (Elt Ideal)) (x2 : (⟨Cert.ReferenceIdeal.S256x1024, .f32⟩ : BufTy).Contents (Elt Ideal)) :
    Cert.ReferenceIdeal.Read.val_main_v27 (F := Ideal) x0 x1 x2 = Cert.Pooling.pooled x0 x1 x2 := by
  funext i
  obtain ⟨b, z, rfl⟩ : ∃ (b : Fin 256) (z : Fin 1), i = ix2 b z := ⟨i 0, i 1, ValueIdx.eq_ix2 i⟩
  rw [val_main_v27_apply, rowMean_at, colMean_at]
  rfl

end Cert.ReferenceIdeal.RefValue

end
-- ==== Proof.lean ====
/- The proof of `Cert.Claim`: a Pallas kernel that pools the similarity of captions and images against its jnp reference.

   For batch entry b the similarity of word m and patch n is the inner product over 512 channels; it passes through a
   leaky rectifier of slope one tenth; each word keeps its maximum over the 1024 patches of the rectified similarity less
   the penalty 1000 * (1 - mask), and these 128 maxima are averaged; each patch keeps its maximum over the words, and
   these are averaged under the mask; the result is the sum of the two means (Proof/Pooling.lean states it once).

   The reference computes exactly that, stage by stage, spelling the rectifier as a choice on the sign
   (Proof/ReferencePooled.lean; the two spellings agree at every extended real because the slope is a real in [0, 1]:
   Proof/Slope.lean).  The kernel walks a grid of 32 batch blocks by 2 patch tiles, keeping running row maxima, a running
   weighted column sum and a running mask sum, and stores the pooled result at the second tile (Proof/TileState.lean: what a
   point leaves; Proof/TileArithmetic.lean: one tile's arithmetic at an index; Proof/TwoTileValue.lean: the value stored
   after two tiles).  A maximum and a sum over 1024 patches regroup into two tiles of 512 by associativity and
   commutativity alone (Proof/TwoTiles.lean, Proof/PooledTwoTiles.lean), so no entry needs to be finite and the
   precondition is never opened.  The stored blocks cover the result array (Proof/KernelPooled.lean).

   The three frames are the generated runs; the idealization rewrote nothing, so `preserves` is `True`. -/
import proofs.«136121_j979252544026_2_alg».proof.Defs
import proofs.«136121_j979252544026_2_alg».proof.Proof.Gen.Kernel
import proofs.«136121_j979252544026_2_alg».proof.Proof.Gen.Kernel.Skeleton
import proofs.«136121_j979252544026_2_alg».proof.Proof.Gen.Kernel.Launch
import proofs.«136121_j979252544026_2_alg».proof.Proof.Gen.Kernel.Points
import proofs.«136121_j979252544026_2_alg».proof.Proof.Gen.Kernel.Frame
import proofs.«136121_j979252544026_2_alg».proof.Proof.Gen.KernelIdeal
import proofs.«136121_j979252544026_2_alg».proof.Proof.Gen.KernelIdeal.Skeleton
import proofs.«136121_j979252544026_2_alg».proof.Proof.Gen.KernelIdeal.Launch
import proofs.«136121_j979252544026_2_alg».proof.Proof.Gen.KernelIdeal.Points
import proofs.«136121_j979252544026_2_alg».proof.Proof.Gen.KernelIdeal.Frame
import proofs.«136121_j979252544026_2_alg».proof.Proof.Gen.ReferenceIdeal
import proofs.«136121_j979252544026_2_alg».proof.Proof.Gen.Pre_finite_inputs
import proofs.«136121_j979252544026_2_alg».proof.Proof.Gen.KernelIdeal.Value
import proofs.«136121_j979252544026_2_alg».proof.Proof.Gen.ReferenceIdeal.Run
import proofs.«136121_j979252544026_2_alg».proof.Proof.Gen.ReferenceIdeal.Read
import proofs.«136121_j979252544026_2_alg».proof.Proof.KernelPooled
import proofs.«136121_j979252544026_2_alg».proof.Proof.ReferencePooled
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the pooled similarity of argument arrays that agree. -/
theorem algebraic : Cert.algebraic_KernelIdeal_ReferenceIdeal := by
  intro m ρ m' ρ' _ hagree
  refine ⟨fun c => Cert.KernelIdeal.Pooled.pooledOf m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.reference_pooled,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
